-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2000x1024 : Shape := ⟨2, ![2000, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2000x1024 : S_.BroadcastsInDim S2000x1024 (![] : Fin 0 → Fin S2000x1024.rank)
  reducesTo_S2000x1024_S_d0_1 : S2000x1024.ReducesTo [0, 1] S_

variable [Facts]

def fn {F : FTy → Type} [FloatOps F] (main_arg0 : FVec F S8192x1024 .f32) (main_arg1 : FVec F S2000x1024 .f32) (main_arg2 : FVec F S2000x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2000x1024 .f32 := Host.absf main_arg1
  let main_cst_0 : FVec F S_ .f32 := constant S_ .f32 0x7F800000#32
  let main_v5 : FVec F S2000x1024 .f32 := broadcastInDim S2000x1024 ![] bcast_S_S2000x1024 main_cst_0
  let main_v6 : IVec S2000x1024 1 := cmpf .olt main_v4 main_v5
  let main_c_1 : IVec S_ 1 := constantI S_ 1 1#1
  let main_v7 : IVec S_ 1 := (fun x v => Host.reduce IntOp.andi x v reducesTo_S2000x1024_S_d0_1 h_S_) main_v6 main_c_1
  let main_v8 : IVec S_ 1 := andi main_v3 main_v7
  let main_v9 : FVec F S2000x1024 .f32 := Host.absf main_arg2
  let main_cst_2 : FVec F S_ .f32 := constant S_ .f32 0x7F800000#32
  let main_v10 : FVec F S2000x1024 .f32 := broadcastInDim S2000x1024 ![] bcast_S_S2000x1024 main_cst_2
  let main_v11 : IVec S2000x1024 1 := cmpf .olt main_v9 main_v10
  let main_c_3 : IVec S_ 1 := constantI S_ 1 1#1
  let main_v12 : IVec S_ 1 := (fun x v => Host.reduce IntOp.andi x v reducesTo_S2000x1024_S_d0_1 h_S_) main_v11 main_c_3
  let main_v13 : IVec S_ 1 := andi main_v8 main_v12
  main_v13
-- ==== Kernel.lean ====
abbrev S8192x1024 : Shape := ⟨2, ![8192, 1024]⟩
abbrev S2000x1024 : Shape := ⟨2, ![2000, 1024]⟩
abbrev S_ : Shape := ⟨0, ![]⟩
abbrev S2000 : Shape := ⟨1, ![2000]⟩
abbrev S1x2000 : Shape := ⟨2, ![1, 2000]⟩
abbrev S8192x2000 : Shape := ⟨2, ![8192, 2000]⟩
abbrev S512x1024 : Shape := ⟨2, ![512, 1024]⟩
abbrev S512x2000 : Shape := ⟨2, ![512, 2000]⟩

abbrev nBuf : Space → Nat
  | .hbm => 27
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2000x1024, .f32⟩
  | .hbm, ⟨2, _⟩ => ⟨S2000x1024, .f32⟩
  | .hbm, ⟨3, _⟩ => ⟨S_, .f32⟩
  | .hbm, ⟨4, _⟩ => ⟨S2000x1024, .f32⟩
  | .hbm, ⟨5, _⟩ => ⟨S2000x1024, .f32⟩
  | .hbm, ⟨6, _⟩ => ⟨S2000x1024, .f32⟩
  | .hbm, ⟨7, _⟩ => ⟨S2000x1024, .f32⟩
  | .hbm, ⟨8, _⟩ => ⟨S2000x1024, .f32⟩
  | .hbm, ⟨9, _⟩ => ⟨S2000x1024, .f32⟩
  | .hbm, ⟨10, _⟩ => ⟨S2000x1024, .f32⟩
  | .hbm, ⟨11, _⟩ => ⟨S_, .f32⟩
  | .hbm, ⟨12, _⟩ => ⟨S2000x1024, .f32⟩
  | .hbm, ⟨13, _⟩ => ⟨S2000x1024, .f32⟩
  | .hbm, ⟨14, _⟩ => ⟨S2000x1024, .f32⟩
  | .hbm, ⟨15, _⟩ => ⟨S_, .f32⟩
  | .hbm, ⟨16, _⟩ => ⟨S2000x1024, .f32⟩
  | .hbm, ⟨17, _⟩ => ⟨S2000x1024, .f32⟩
  | .hbm, ⟨18, _⟩ => ⟨S2000x1024, .f32⟩
  | .hbm, ⟨19, _⟩ => ⟨S2000x1024, .f32⟩
  | .hbm, ⟨20, _⟩ => ⟨S2000x1024, .f32⟩
  | .hbm, ⟨21, _⟩ => ⟨S_, .f32⟩
  | .hbm, ⟨22, _⟩ => ⟨S2000, .f32⟩
  | .hbm, ⟨23, _⟩ => ⟨S2000x1024, .bf16⟩
  | .hbm, ⟨24, _⟩ => ⟨S2000x1024, .bf16⟩
  | .hbm, ⟨25, _⟩ => ⟨S1x2000, .f32⟩
  | .hbm, ⟨26, _⟩ => ⟨S8192x2000, .f32⟩
  | .local _ .vmem, ⟨0, _⟩ => ⟨S512x1024, .f32⟩
  | .local _ .vmem, ⟨1, _⟩ => ⟨S512x1024, .f32⟩
  | .local _ .vmem, ⟨2, _⟩ => ⟨S2000x1024, .bf16⟩
  | .local _ .vmem, ⟨3, _⟩ => ⟨S2000x1024, .bf16⟩
  | .local _ .vmem, ⟨4, _⟩ => ⟨S1x2000, .f32⟩
  | .local _ .vmem, ⟨5, _⟩ => ⟨S512x2000, .f32⟩
  | .local _ .vmem, ⟨6, _⟩ => ⟨S512x2000, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2000x1024 : S_.BroadcastsInDim S2000x1024 (![] : Fin 0 → Fin S2000x1024.rank)
  reducesTo_S2000x1024_S2000_d1 : S2000x1024.ReducesTo [1] S2000
  h_S_ : 0 < S_.numel
  bitsLt_bf16_f32 : FTy.bits .bf16 < FTy.bits .f32
  shapeCasts_S2000_S1x2000 : S2000.ShapeCasts S1x2000
  inb_S512x1024_S512x1024_0_0 : ∀ a, (![0, 0] : Fin 2 → Nat) a + S512x1024.size a ≤ S512x1024.size a
  h_S512x1024 : 0 < S512x1024.numel
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S512x2000 : S1x2000.Broadcasts S512x2000
  inb_S512x2000_S512x2000_0_0 : ∀ a, (![0, 0] : Fin 2 → Nat) a + S512x2000.size a ≤ S512x2000.size a
  h_S512x2000 : 0 < S512x2000.numel
  dot_S512x1024_S2000x1024_S512x2000_1_1_0_0_n_n_wf : DotDims.WF S512x1024 S2000x1024 S512x2000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S2000x1024.size a
  hwx0_1 : ∀ i : grid0.Coords, EltTy.bits .bf16 = 32 ∨ (Rect.block (s := S2000x1024) S2000x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x1024.size a ≤ S2000x1024.size a
  hwx0_2 : ∀ i : grid0.Coords, EltTy.bits .bf16 = 32 ∨ (Rect.block (s := S2000x1024) S2000x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2000.size a ≤ S1x2000.size a
  hwx0_3 : ∀ i : grid0.Coords, EltTy.bits .f32 = 32 ∨ (Rect.block (s := S1x2000) S1x2000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2000.size a ≤ S8192x2000.size a
  hwx0_4 : ∀ i : grid0.Coords, EltTy.bits .f32 = 32 ∨ (Rect.block (s := S8192x2000) S512x2000.size (cc0_transform_4 i) (hinb0_4 i)).WholeWords (EltTy.packing .f32)

variable [Facts₀]

def dot_S512x1024_S2000x1024_S512x2000_1_1_0_0_n_n : DotDims S512x1024 S2000x1024 S512x2000 where
  lhsContracting := [1]
  rhsContracting := [1]
  lhsNonContracting := [0]
  rhsNonContracting := [0]
  lhsBatch := []
  rhsBatch := []
  wf := dot_S512x1024_S2000x1024_S512x2000_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S512x2000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2000x1024 : Shape := ⟨2, ![2000, 1024]⟩
abbrev S_ : Shape := ⟨0, ![]⟩
abbrev S8192x2000 : Shape := ⟨2, ![8192, 2000]⟩
abbrev S2000 : Shape := ⟨1, ![2000]⟩
abbrev S1x2000 : Shape := ⟨2, ![1, 2000]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2000x1024, .f32⟩
  | .hbm, ⟨2, _⟩ => ⟨S2000x1024, .f32⟩
  | .hbm, ⟨3, _⟩ => ⟨S2000x1024, .f32⟩
  | .hbm, ⟨4, _⟩ => ⟨S2000x1024, .f32⟩
  | .hbm, ⟨5, _⟩ => ⟨S_, .f32⟩
  | .hbm, ⟨6, _⟩ => ⟨S2000x1024, .f32⟩
  | .hbm, ⟨7, _⟩ => ⟨S2000x1024, .f32⟩
  | .hbm, ⟨8, _⟩ => ⟨S2000x1024, .f32⟩
  | .hbm, ⟨9, _⟩ => ⟨S_, .f32⟩
  | .hbm, ⟨10, _⟩ => ⟨S2000x1024, .f32⟩
  | .hbm, ⟨11, _⟩ => ⟨S2000x1024, .f32⟩
  | .hbm, ⟨12, _⟩ => ⟨S8192x1024, .f32⟩
  | .hbm, ⟨13, _⟩ => ⟨S8192x2000, .f32⟩
  | .hbm, ⟨14, _⟩ => ⟨S2000x1024, .f32⟩
  | .hbm, ⟨15, _⟩ => ⟨S8192x2000, .f32⟩
  | .hbm, ⟨16, _⟩ => ⟨S_, .f32⟩
  | .hbm, ⟨17, _⟩ => ⟨S8192x2000, .f32⟩
  | .hbm, ⟨18, _⟩ => ⟨S8192x2000, .f32⟩
  | .hbm, ⟨19, _⟩ => ⟨S8192x2000, .f32⟩
  | .hbm, ⟨20, _⟩ => ⟨S2000x1024, .f32⟩
  | .hbm, ⟨21, _⟩ => ⟨S2000x1024, .f32⟩
  | .hbm, ⟨22, _⟩ => ⟨S_, .f32⟩
  | .hbm, ⟨23, _⟩ => ⟨S2000, .f32⟩
  | .hbm, ⟨24, _⟩ => ⟨S1x2000, .f32⟩
  | .hbm, ⟨25, _⟩ => ⟨S8192x2000, .f32⟩
  | .hbm, ⟨26, _⟩ => ⟨S8192x2000, .f32⟩
  | .hbm, ⟨27, _⟩ => ⟨S8192x2000, .f32⟩
  | .hbm, ⟨28, _⟩ => ⟨S8192x2000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S2000x1024 : S_.BroadcastsInDim S2000x1024 (![] : Fin 0 → Fin S2000x1024.rank)
  bcast_S_S8192x2000 : S_.BroadcastsInDim S8192x2000 (![] : Fin 0 → Fin S8192x2000.rank)
  reducesTo_S2000x1024_S2000_d1 : S2000x1024.ReducesTo [1] S2000
  h_S_ : 0 < S_.numel
  bcast_S2000_S1x2000_1 : S2000.BroadcastsInDim S1x2000 (![1] : Fin 1 → Fin S1x2000.rank)
  bcast_S1x2000_S8192x2000_0_1 : S1x2000.BroadcastsInDim S8192x2000 (![0, 1] : Fin 2 → Fin S8192x2000.rank)
  dot_S8192x1024_S2000x1024_S8192x2000_1_1_0_0_n_n_wf : DotDims.WF S8192x1024 S2000x1024 S8192x2000 [1] [1] [0] [0] [] []

variable [Facts₀]

def dot_S8192x1024_S2000x1024_S8192x2000_1_1_0_0_n_n : DotDims S8192x1024 S2000x1024 S8192x2000 where
  lhsContracting := [1]
  rhsContracting := [1]
  lhsNonContracting := [0]
  rhsNonContracting := [0]
  lhsBatch := []
  rhsBatch := []
  wf := dot_S8192x1024_S2000x1024_S8192x2000_1_1_0_0_n_n_wf

class Facts : Prop extends Facts₀ where

variable [Facts]
-- ==== Proof.Spec.lean ====
/-
  The radial-basis layer on the extended reals, as one function of its arrays.

  For a batch x (8192 rows of 1024 features), class means (2000 rows of 1024) and per-class, per-feature precision
  weights w, the entry at (row a, class b) is
      exp (−((Σ_k x[a,k]² · w[b,k] − 2 · Σ_k x[a,k] · (mean[b,k] · w[b,k])) + (0 + Σ_k mean[b,k]² · w[b,k]))),
  the expansion of exp (−Σ_k (x[a,k] − mean[b,k])² · w[b,k]) into two matrix products and a per-class bias, with the
  sums grouped exactly as both programs group them. The weight is 1 / ((2·σ)·σ) of a softplus σ of the raw
  parameter ρ. Two spellings of the softplus occur: log (1 + e^ρ), and max(ρ, 0) + log (1 + e^(−|ρ|)); they are one
  function at every finite ρ (`softplusStable_coe`), which is the only law the two programs differ by.
-/
import Idealize.ShloMosaic.PureOps.Ideal.Laws
import Idealize.ShloMosaic.Lib.ValueIdx

noncomputable section

namespace Cert.Rbf

open Idealize.ShloMosaic Idealize.ShloMosaic.ValueIdx

/-- The batch's shape, the class parameters' shape and the result's shape. -/
abbrev SX : Shape := ⟨2, ![8192, 1024]⟩
abbrev SC : Shape := ⟨2, ![2000, 1024]⟩
abbrev SO : Shape := ⟨2, ![8192, 2000]⟩

/-! ## The two spellings of the softplus -/

/-- log (1 + e^ρ). -/
def softplus (r : EReal) : EReal := Ideal.log1p (Ideal.exp r)

/-- max(ρ, 0) + log (1 + e^(−|ρ|)), with |ρ| spelt max(ρ, −ρ) and the zero as its f32 word. -/
def softplusStable (r : EReal) : EReal :=
  max r (Ideal.ofBits .f32 0x00000000#32) + Ideal.log1p (Ideal.exp (-(max r (-r))))

/-- The embedding of the reals is monotone, so it carries a maximum to the maximum. -/
theorem coe_max (a b : ℝ) : ((max a b : ℝ) : EReal) = max (a : EReal) (b : EReal) :=
  EReal.coe_strictMono.monotone.map_max

/-- On the reals: max(r, 0) + log (1 + e^(−|r|)) = log (1 + e^r). For r ≥ 0 the left side is
    log e^r + log (1 + e^(−r)) = log (e^r + 1); for r ≤ 0 it is 0 + log (1 + e^r). -/
theorem real_softplus (r : ℝ) :
    max r 0 + Real.log (1 + Real.exp (-(max r (-r)))) = Real.log (1 + Real.exp r) := by
  rcases le_total 0 r with h | h
  · rw [max_eq_left h, max_eq_left (by linarith : -r ≤ r)]
    have h1 : (1 : ℝ) + Real.exp r = Real.exp r * (1 + Real.exp (-r)) := by
      rw [mul_add, mul_one, ← Real.exp_add, add_neg_cancel, Real.exp_zero, add_comm]
    rw [h1, Real.log_mul (Real.exp_pos r).ne' (by positivity), Real.log_exp]
  · rw [max_eq_right h, max_eq_right (by linarith : r ≤ -r), neg_neg, zero_add]

/-- log (1 + e^s) at a real s is the real logarithm: 1 + e^s is positive. -/
theorem softplus_coe (s : ℝ) : softplus (s : EReal) = ((Real.log (1 + Real.exp s) : ℝ) : EReal) := by
  unfold softplus Ideal.log1p
  rw [Ideal.exp_coe, show (1 : EReal) + ((Real.exp s : ℝ) : EReal) = ((1 + Real.exp s : ℝ) : EReal) from rfl,
    Ideal.log_coe, if_neg (by have := Real.exp_pos s; linarith)]

/-- The two spellings agree at every finite ρ. -/
theorem softplusStable_coe (r : ℝ) : softplusStable (r : EReal) = softplus (r : EReal) := by
  have e1 : max (r : EReal) (Ideal.ofBits .f32 0x00000000#32) = ((max r 0 : ℝ) : EReal) := by
    rw [Ideal.ofBits_zero_f32, coe_max]; rfl
  have e2 : -(max (r : EReal) (-(r : EReal))) = ((-(max r (-r)) : ℝ) : EReal) := by
    rw [EReal.coe_neg, coe_max, EReal.coe_neg]
  unfold softplusStable
  rw [e1, e2]
  show _ + softplus _ = _
  rw [softplus_coe, softplus_coe, ← EReal.coe_add, real_softplus]

/-! ## The layer -/

/-- The precision weight of a softplus value σ: 1 / ((2·σ)·σ), the constants as their f32 words. -/
def weight (s : EReal) : EReal :=
  Ideal.div (Ideal.ofBits .f32 0x3F800000#32) ((Ideal.ofBits .f32 0x40000000#32 * s) * s)

/-- The layer's entry at row `a` of the batch and class `b`. -/
def rbfAt (x : SX.Idx → EReal) (mean w : SC.Idx → EReal) (a : Fin 8192) (b : Fin 2000) : EReal :=
  Ideal.exp (-(((∑ k : Fin 1024, (x (ix2 a k) * x (ix2 a k)) * w (ix2 b k))
        - Ideal.ofBits .f32 0x40000000#32 * ∑ k : Fin 1024, x (ix2 a k) * (mean (ix2 b k) * w (ix2 b k)))
      + (Ideal.ofBits .f32 0x00000000#32 + ∑ k : Fin 1024, (mean (ix2 b k) * mean (ix2 b k)) * w (ix2 b k))))

/-- The whole result array. -/
def rbf (x : SX.Idx → EReal) (mean w : SC.Idx → EReal) : SO.Idx → EReal := fun i => rbfAt x mean w (i 0) (i 1)

/-- The weights from the raw parameter through either softplus. -/
def weights (sp : EReal → EReal) (rho : SC.Idx → EReal) : SC.Idx → EReal := fun j => weight (sp (rho j))

/-- Where every raw parameter is finite the two softplus spellings give the same weights. -/
theorem weights_stable (rho : SC.Idx → EReal) (hfin : ∀ j, ∃ r : ℝ, rho j = (r : EReal)) :
    weights softplusStable rho = weights softplus rho := by
  funext j
  obtain ⟨r, hr⟩ := hfin j
  unfold weights
  rw [hr, softplusStable_coe]

end Cert.Rbf

end
-- ==== Proof.RefValue.lean ====
/-
  The reference program's result is the radial-basis layer of its three arguments, with the weights taken through the
  plain softplus log (1 + e^ρ): read one operation at a time, its two dot_generals contract the feature axis of the
  batch against the feature axis of the class parameters, its bias sum runs over the same axis, and the broadcasts only
  repeat the bias along the batch.
-/
import proofs.«154502_j850403524973_2_alg».proof.Proof.Gen.ReferenceIdeal.Read
import proofs.«154502_j850403524973_2_alg».proof.Proof.Spec

noncomputable section

namespace Cert.Rbf.Reference

open Cert.ReferenceIdeal Cert.ReferenceIdeal.Read Idealize.ShloMosaic Idealize.ShloMosaic.ValueIdx Cert.Rbf

/-- The reference's weight array: 1 / ((2·σ)·σ) with σ = log (1 + e^ρ), entry by entry. -/
theorem weight_eq (x2 : S2000x1024.Idx → EReal) (j : S2000x1024.Idx) :
    val_main_v6 (F := Ideal) x2 j = weights softplus x2 j := by
  rw [val_main_v6_apply, val_main_v5_apply, val_main_v4_apply, val_main_v3_apply, val_main_v2_apply, val_main_v1_apply,
    val_main_v0_apply]
  rfl

/-- The reference's result array is the layer. -/
theorem result_eq (x0 : S8192x1024.Idx → EReal) (x1 x2 : S2000x1024.Idx → EReal) :
    val_main_v21 (F := Ideal) x0 x1 x2 = rbf x0 x1 (weights softplus x2) := by
  funext i
  have hl8 : ∀ k, lidx_main_v8 i k = ix2 (i 0) k := fun k =>
    funext fun a => Fin.ext (by match a with | ⟨0, _⟩ => rfl | ⟨1, _⟩ => rfl)
  have hr8 : ∀ k, ridx_main_v8 i k = ix2 (i 1) k := fun k =>
    funext fun a => Fin.ext (by match a with | ⟨0, _⟩ => rfl | ⟨1, _⟩ => rfl)
  have hl10 : ∀ k, lidx_main_v10 i k = ix2 (i 0) k := fun k =>
    funext fun a => Fin.ext (by match a with | ⟨0, _⟩ => rfl | ⟨1, _⟩ => rfl)
  have hr10 : ∀ k, ridx_main_v10 i k = ix2 (i 1) k := fun k =>
    funext fun a => Fin.ext (by match a with | ⟨0, _⟩ => rfl | ⟨1, _⟩ => rfl)
  have hb : ∀ k, idx_main_v16 (idx_main_v17 (idx_main_v18 i)) k = ix2 (i 1) k := fun k =>
    funext fun a => Fin.ext (by match a with | ⟨0, _⟩ => rfl | ⟨1, _⟩ => rfl)
  rw [val_main_v21_apply, val_main_v20_apply, val_main_v19_apply, val_main_v13_apply, val_main_v8_apply,
    val_main_v12_apply, val_main_v11_apply, val_main_v10_apply, val_main_v18_apply, val_main_v17_apply,
    val_main_v16_apply]
  simp only [hl8, hr8, hl10, hr10, hb, val_main_v7_apply, val_main_v9_apply, val_main_v15_apply, val_main_v14_apply,
    weight_eq]
  rfl

end Cert.Rbf.Reference

end
-- ==== Proof.KernelBlock.lean ====
/-
  The kernel body's one stored value, read at an entry (p, q) of a 512 × 2000 block, on the extended reals:
      exp (−((Σ_k x[p,k]² · w[q,k] − 2 · Σ_k x[p,k] · mw[q,k]) + bias[0,q]))
  (the body spells the negation as a subtraction from zero) from the loaded batch block x (512 × 1024), the whole weight arrays w and mw (2000 × 1024) and the bias row
  (1 × 2000). The two products contract the feature axis of both operands into a zero accumulator, so each is the plain
  sum over the 1024 features; the bias row is repeated down the 512 rows; the casts are to the same shape and the
  changes of float format are the identity.
-/
import proofs.«154502_j850403524973_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.Rbf.Block

open Cert.KernelIdeal Cert.KernelIdeal.Gen Idealize.ShloMosaic Idealize.ShloMosaic.ValueIdx

/-- The left operand's row coordinate is the output's row coordinate, -/
theorem lhs_row (i : S512x2000.Idx) (q : dot_S512x1024_S2000x1024_S512x2000_1_1_0_0_n_n.contr.Idx) :
    (dot_S512x1024_S2000x1024_S512x2000_1_1_0_0_n_n.lhsIdx i q 0).val = (i 0).val := by
  unfold DotDims.lhsIdx
  rw [dif_neg (show ¬(0 : Fin S512x1024.rank) ∈ dot_S512x1024_S2000x1024_S512x2000_1_1_0_0_n_n.lhsBatch by decide),
    dif_pos (show (0 : Fin S512x1024.rank) ∈ dot_S512x1024_S2000x1024_S512x2000_1_1_0_0_n_n.lhsNonContracting by decide)]
  rfl

/-- and the right operand's row coordinate is the output's column coordinate. -/
theorem rhs_row (i : S512x2000.Idx) (q : dot_S512x1024_S2000x1024_S512x2000_1_1_0_0_n_n.contr.Idx) :
    (dot_S512x1024_S2000x1024_S512x2000_1_1_0_0_n_n.rhsIdx i q 0).val = (i 1).val := by
  unfold DotDims.rhsIdx
  rw [dif_neg (show ¬(0 : Fin S2000x1024.rank) ∈ dot_S512x1024_S2000x1024_S512x2000_1_1_0_0_n_n.rhsBatch by decide),
    dif_pos (show (0 : Fin S2000x1024.rank) ∈ dot_S512x1024_S2000x1024_S512x2000_1_1_0_0_n_n.rhsNonContracting by decide)]
  rfl

/-- The body's product of a 512 × 1024 block with a 2000 × 1024 array, both contracted along their feature axis, into
    the zero accumulator: at (p, q) the sum over the features k of A[p,k] · B[q,k]. -/
theorem dot_apply {φ₁ φ₂ : FTy} (A : FVec Ideal S512x1024 φ₁) (B : FVec Ideal S2000x1024 φ₂) (p : Fin 512) (q : Fin 2000) :
    matmul dot_S512x1024_S2000x1024_S512x2000_1_1_0_0_n_n none A B (constant S512x2000 .f32 0x00000000#32) (ix2 p q)
      = ∑ k : Fin 1024, A (ix2 p k) * B (ix2 q k) := by
  show FloatOps.matmul dot_S512x1024_S2000x1024_S512x2000_1_1_0_0_n_n none A B (constant S512x2000 .f32 0x00000000#32) (ix2 p q) = _
  rw [Ideal.matmul_constant_zero_apply,
    ← Equiv.sum_comp (contrEquiv1 dot_S512x1024_S2000x1024_S512x2000_1_1_0_0_n_n 1024 rfl rfl).symm]
  refine Finset.sum_congr rfl fun k _ => ?_
  have hk := contrEquiv1_symm_val dot_S512x1024_S2000x1024_S512x2000_1_1_0_0_n_n 1024 rfl rfl k
  have el : dot_S512x1024_S2000x1024_S512x2000_1_1_0_0_n_n.lhsIdx (ix2 p q)
      ((contrEquiv1 dot_S512x1024_S2000x1024_S512x2000_1_1_0_0_n_n 1024 rfl rfl).symm k) = ix2 p k :=
    funext fun a => Fin.ext (by
      match a with
      | ⟨0, _⟩ => exact lhs_row _ _
      | ⟨1, _⟩ => exact (dot_S512x1024_S2000x1024_S512x2000_1_1_0_0_n_n.lhsIdx_val_of_single rfl _ _).trans hk)
  have er : dot_S512x1024_S2000x1024_S512x2000_1_1_0_0_n_n.rhsIdx (ix2 p q)
      ((contrEquiv1 dot_S512x1024_S2000x1024_S512x2000_1_1_0_0_n_n 1024 rfl rfl).symm k) = ix2 q k :=
    funext fun a => Fin.ext (by
      match a with
      | ⟨0, _⟩ => exact rhs_row _ _
      | ⟨1, _⟩ => exact (dot_S512x1024_S2000x1024_S512x2000_1_1_0_0_n_n.rhsIdx_val_of_single rfl _ _).trans hk)
  rw [el, er]

/-- The bias row repeated down the block's 512 rows: at (p, q) it is the row's entry (0, q). -/
theorem bias_apply (b : S1x2000.Idx → EReal) (p : Fin 512) (q : Fin 2000) :
    broadcastTo S512x2000 b broadcasts_S1x2000_S512x2000 (ix2 p q) = b (ix2 (0 : Fin 1) q) :=
  broadcastTo_apply b broadcasts_S1x2000_S512x2000 (ix2 p q) (ix2 (0 : Fin 1) q) (fun a => match a with
    | ⟨0, _⟩ => by show 0 = if (1 : Nat) = 1 then 0 else _; rw [if_pos rfl]
    | ⟨1, _⟩ => by show q.val = if (2000 : Nat) = 1 then 0 else _; rw [if_neg (by decide)]; rfl)

/-- Subtracting from the zero word is negation. -/
theorem zeroWord_sub (a : EReal) : Ideal.ofBits .f32 0x00000000#32 - a = -a := by
  rw [Ideal.ofBits_zero_f32, zero_sub]

/-- The stored value at (p, q). -/
theorem payload_apply (v0 : Vec Ideal S512x1024 .f32) (v1 v3 : Vec Ideal S2000x1024 .bf16) (v5 : Vec Ideal S1x2000 .f32)
    (p : Fin 512) (q : Fin 2000) :
    k0_pay1 (F := Ideal) v0 v1 v3 v5 (ix2 p q)
      = Ideal.exp (-(((∑ k : Fin 1024, (v0 (ix2 p k) * v0 (ix2 p k)) * v1 (ix2 q k))
              - Ideal.ofBits .f32 0x40000000#32 * ∑ k : Fin 1024, v0 (ix2 p k) * v3 (ix2 q k))
            + v5 (ix2 (0 : Fin 1) q))) := by
  unfold k0_pay1
  rw [shapeCast_self, shapeCast_self, shapeCast_self]
  show Ideal.exp (Ideal.ofBits .f32 0x00000000#32
      - ((matmul (F := Ideal) dot_S512x1024_S2000x1024_S512x2000_1_1_0_0_n_n none (truncf .bf16 (mulf v0 v0) bitsLt_bf16_f32) v1
            (constant S512x2000 .f32 0x00000000#32) (ix2 p q)
          - Ideal.ofBits .f32 0x40000000#32
            * matmul (F := Ideal) dot_S512x1024_S2000x1024_S512x2000_1_1_0_0_n_n none (truncf .bf16 v0 bitsLt_bf16_f32) v3
                (constant S512x2000 .f32 0x00000000#32) (ix2 p q))
        + broadcastTo S512x2000 v5 broadcasts_S1x2000_S512x2000 (ix2 p q))) = _
  rw [dot_apply, dot_apply, bias_apply]
  exact congrArg Ideal.exp (zeroWord_sub _)

end Cert.Rbf.Block

end
-- ==== Proof.KernelHost.lean ====
/-
  What the kernel's host operations before its region leave in the three arrays the region reads besides the batch:
  the weight array w = 1 / ((2·σ)·σ) with σ the stable softplus max(ρ, 0) + log (1 + e^(−|ρ|)) of the raw parameter,
  the product mean · w, and the bias row, whose entry (0, q) is 0 + Σ_k mean[q,k]² · w[q,k] — each as a function of
  the program's arguments, entry by entry, on the extended reals. The roundings to bf16 are the identity there, and the
  reshape of the 2000 bias sums to a 1 × 2000 row keeps their order.
-/
import proofs.«154502_j850403524973_2_alg».proof.Proof.Gen.KernelIdeal.Frame
import proofs.«154502_j850403524973_2_alg».proof.Proof.Spec
import Idealize.ShloMosaic.Lib.StableHlo.Run
import Idealize.ShloMosaic.Lib.Pipeline.Value

noncomputable section

namespace Cert.Rbf.Host

open Cert.KernelIdeal Cert.KernelIdeal.Gen Idealize.ShloMosaic Idealize.ShloMosaic.TcCoe Idealize.SL.Sem
open Idealize.ShloMosaic.StableHlo Idealize.ShloMosaic.ValueIdx Cert.Rbf

variable (m : (ℓ : Loc nD τ sig) → Buf (Elt Ideal) ℓ)

/-- The program's three arguments on core `c` as launched: the batch, the class means, the raw parameter. -/
abbrev argX (c : Dev nD) : SX.Idx → EReal := m ((c : Thread nD τ).loc main_arg0)
abbrev argMean (c : Dev nD) : SC.Idx → EReal := m ((c : Thread nD τ).loc main_arg1)
abbrev argRho (c : Dev nD) : SC.Idx → EReal := m ((c : Thread nD τ).loc main_arg2)

/-- The weights the region finds: through the stable softplus. -/
abbrev w (c : Dev nD) : SC.Idx → EReal := weights softplusStable (argRho m c)

/-- The second operand array the region reads is the weight array. -/
theorem V_weights (c : Dev nD) : (V m c main_v16 : S2000x1024.Idx → EReal) = w m c := by
  dsimp only [Gen.V, Gen.hostOps0]
  after_results
  rfl

/-- The third is mean · w. -/
theorem V_meanWeights (c : Dev nD) :
    (V m c main_v17 : S2000x1024.Idx → EReal) = fun j => argMean m c j * w m c j := by
  dsimp only [Gen.V, Gen.hostOps0]
  after_results
  rfl

/-- The host's sum of mean² · w along the feature axis, from the zero word, at class q. -/
theorem biasSum_apply (y : S2000x1024.Idx → EReal) (q : Fin 2000) :
    Host.reduceAdd (F := Ideal) y (constant S_ .f32 0x00000000#32) reducesTo_S2000x1024_S2000_d1 h_S_ (ix1 q)
      = Ideal.ofBits .f32 0x00000000#32 + ∑ k : Fin 1024, y (ix2 q k) := by
  simp only [Host.reduceAdd, Ideal.hostReduceAdd_def]
  rw [Ideal.hostReduceAdd_single reducesTo_S2000x1024_S2000_d1 (by decide)]
  refine congrArg (_ + ·) (Finset.sum_congr rfl fun k _ => ?_)
  exact congrArg y (funext fun a => Fin.ext (by match a with | ⟨0, _⟩ => rfl | ⟨1, _⟩ => rfl))

/-- The fourth is the bias row: at (0, q) the sum for class q. -/
theorem V_bias (c : Dev nD) (q : Fin 2000) :
    (V m c main_v18 : S1x2000.Idx → EReal) (ix2 (0 : Fin 1) q)
      = Ideal.ofBits .f32 0x00000000#32
        + ∑ k : Fin 1024, (argMean m c (ix2 q k) * argMean m c (ix2 q k)) * w m c (ix2 q k) := by
  have e : (V m c main_v18 : S1x2000.Idx → EReal)
      = shapeCast S1x2000 (Host.reduceAdd (F := Ideal) (fun j => (argMean m c j * argMean m c j) * w m c j)
          (constant S_ .f32 0x00000000#32) reducesTo_S2000x1024_S2000_d1 h_S_) shapeCasts_S2000_S1x2000 := by
    dsimp only [Gen.V, Gen.hostOps0]
    after_results
    rfl
  rw [e]
  refine (shapeCast_apply _ shapeCasts_S2000_S1x2000 (ix2 (0 : Fin 1) q) (ix1 q) ?_).trans (biasSum_apply _ q)
  rw [Shape.rowMajor_val_one, Shape.rowMajor_val_two]
  show q.val = 0 * 2000 + q.val
  omega

end Cert.Rbf.Host

end
-- ==== Proof.KernelValue.lean ====
/-
  The kernel's result array after its run is the radial-basis layer of the program's arguments, with the weights taken
  through the stable softplus.

  The grid has 16 points; point t computes rows 512·t … 512·t + 511 of the result from rows 512·t … of the batch and
  from the whole weight, mean·weight and bias arrays, which every point reads at block (0, 0). So what point t writes
  back is block t of the layer: entry (p, q) of the block is the layer's entry (512·t + p, q), the body's two sums
  being the layer's two products and the bias row's entry its per-class sum. The 16 blocks tile the 8192 rows (row r is
  in block r / 512), so the whole array ends as the layer.
-/
import proofs.«154502_j850403524973_2_alg».proof.Proof.Gen.KernelIdeal.Value
import proofs.«154502_j850403524973_2_alg».proof.Proof.KernelBlock
import proofs.«154502_j850403524973_2_alg».proof.Proof.KernelHost

noncomputable section

namespace Cert.Rbf.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Rbf Cert.Rbf.Host Cert.Rbf.Block

variable (m : (ℓ : Loc nD τ sig) → Buf (Elt Ideal) ℓ) (ρ : Dev nD → PrngReg)

theorem origin : (![0, 0] : Fin 2 → Nat) = fun _ => 0 := funext fun a => by fin_cases a <;> rfl

/-- The index maps over the 16 grid points: the batch and the result move down one block of rows per point, and the
    three class arrays stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of rows is some point's. -/
theorem index_onto : ∀ q0 : Fin 16, ∃ t : Fin cfg0.N, win0_4.index t = ![q0.val, 0] :=
  (by decide +kernel : ∀ q0 : Fin 16, ∃ t : Fin grid0.N, win0_4.index t = ![q0.val, 0])

/-- WHAT POINT t WRITES BACK is block t of the layer. -/
theorem flushed_eq (c : Dev nD) (t : Fin cfg0.N) :
    (dats m 0 c).flushed 4 t
      = ((cfg0.win 4).blk t).view.read (Elt Ideal) (rbf (argX m c) (argMean m c) (w m c)) := by
  rw [Cert.KernelIdeal.Value.flushed4]
  unfold out0_4
  rw [View.canon_unit_zero origin]
  simp only [View.ld_unit_zero (S := S512x1024) origin, View.ld_unit_zero (S := S2000x1024) origin,
    View.ld_unit_zero (S := S1x2000) origin]
  obtain ⟨e00, e01, e10, e11, e20, e21, e30, e31, e40, e41⟩ := index_maps t
  have ht : t.val < 16 := lt_of_lt_of_eq t.isLt N_0
  funext j
  obtain ⟨p, q, rfl⟩ : ∃ (p : Fin 512) (q : Fin 2000), j = ix2 p q := ⟨j 0, j 1, eq_ix2 j⟩
  -- the row of the array that row p of block t is
  have hrow : t.val * 512 + p.val < 8192 := by have := p.isLt; omega
  -- the block's entry (p, q) sits at the array's entry (512·t + p, q)
  have hemb : ((cfg0.win 4).blk t).view.emb (ix2 p q) = ix2 (⟨t.val * 512 + p.val, hrow⟩ : Fin 8192) q := by
    funext a; apply Fin.ext
    match a with
    | ⟨0, _⟩ => show win0_4.index t (0 : Fin 2) * 512 + 1 * p.val = t.val * 512 + p.val; omega
    | ⟨1, _⟩ => show win0_4.index t (1 : Fin 2) * 2000 + 1 * q.val = q.val; omega
  -- the batch block's row p is the batch's row 512·t + p
  have hx : ∀ k : Fin 1024, (iblk m c 0 t : S512x1024.Idx → EReal) (ix2 p k)
      = argX m c (ix2 (⟨t.val * 512 + p.val, hrow⟩ : Fin 8192) k) := fun k => by
    show V m c main_arg0 (((cfg0.win 0).blk t).view.emb (ix2 p k)) = _
    rw [V_main_arg0]
    refine congrArg (argX m c) (funext fun a => Fin.ext ?_)
    match a with
    | ⟨0, _⟩ => show win0_0.index t (0 : Fin 2) * 512 + 1 * p.val = t.val * 512 + p.val; omega
    | ⟨1, _⟩ => show win0_0.index t (1 : Fin 2) * 1024 + 1 * k.val = k.val; omega
  -- the class arrays are read whole
  have hw : ∀ k : Fin 1024, (iblk m c 1 t : S2000x1024.Idx → EReal) (ix2 q k) = w m c (ix2 q k) := fun k => by
    show (V m c main_v16 : S2000x1024.Idx → EReal) (((cfg0.win 1).blk t).view.emb (ix2 q k)) = _
    rw [V_weights]
    refine congrArg (w m c) (funext fun a => Fin.ext ?_)
    match a with
    | ⟨0, _⟩ => show win0_1.index t (0 : Fin 2) * 2000 + 1 * q.val = q.val; omega
    | ⟨1, _⟩ => show win0_1.index t (1 : Fin 2) * 1024 + 1 * k.val = k.val; omega
  have hmw : ∀ k : Fin 1024, (iblk m c 2 t : S2000x1024.Idx → EReal) (ix2 q k)
      = argMean m c (ix2 q k) * w m c (ix2 q k) := fun k => by
    show (V m c main_v17 : S2000x1024.Idx → EReal) (((cfg0.win 2).blk t).view.emb (ix2 q k)) = _
    rw [V_meanWeights]
    refine congrArg (fun j => argMean m c j * w m c j) (funext fun a => Fin.ext ?_)
    match a with
    | ⟨0, _⟩ => show win0_2.index t (0 : Fin 2) * 2000 + 1 * q.val = q.val; omega
    | ⟨1, _⟩ => show win0_2.index t (1 : Fin 2) * 1024 + 1 * k.val = k.val; omega
  have hb : (iblk m c 3 t : S1x2000.Idx → EReal) (ix2 (0 : Fin 1) q)
      = Ideal.ofBits .f32 0x00000000#32
        + ∑ k : Fin 1024, (argMean m c (ix2 q k) * argMean m c (ix2 q k)) * w m c (ix2 q k) := by
    refine Eq.trans ?_ (V_bias m c q)
    show (V m c main_v18 : S1x2000.Idx → EReal) (((cfg0.win 3).blk t).view.emb (ix2 (0 : Fin 1) q)) = _
    refine congrArg (V m c main_v18 : S1x2000.Idx → EReal) (funext fun a => Fin.ext ?_)
    match a with
    | ⟨0, _⟩ => show win0_3.index t (0 : Fin 2) * 1 + 1 * 0 = 0; omega
    | ⟨1, _⟩ => show win0_3.index t (1 : Fin 2) * 2000 + 1 * q.val = q.val; omega
  show k0_pay1 (iblk m c 0 t) (iblk m c 1 t) (iblk m c 2 t) (iblk m c 3 t) (ix2 p q)
    = rbf (argX m c) (argMean m c) (w m c) (((cfg0.win 4).blk t).view.emb (ix2 p q))
  rw [hemb]
  refine (payload_apply (iblk m c 0 t) (iblk m c 1 t) (iblk m c 2 t) (iblk m c 3 t) p q).trans ?_
  simp only [hx, hw, hmw, hb]
  rfl

/-- An index of the array is in point t's block iff each coordinate is in the block's range on its axis. -/
theorem mem_blk (t : Fin cfg0.N) (i : S8192x2000.Idx) :
    i ∈ ((cfg0.win 4).blk t).view.set
      ↔ ∀ a : Fin 2, win0_4.index t a * S512x2000.size a ≤ (i a).val
          ∧ (i a).val < win0_4.index t a * S512x2000.size a + S512x2000.size a := by
  show i ∈ ((View.whole main_v19).slice (win0_4.rect t)).set ↔ _
  rw [View.set_slice_whole, Rect.mem_set_unit]
  exact Iff.rfl

/-- The blocks cover the array: row r is in block r / 512. -/
theorem cover (i : S8192x2000.Idx) :
    ∃ t : Fin cfg0.N, (cfg0.win 4).flush t = true ∧ i ∈ ((cfg0.win 4).blk t).view.set := by
  have hi0 : (i 0).val < 8192 := (i 0).isLt
  have hi1 : (i 1).val < 2000 := (i 1).isLt
  obtain ⟨t, ht⟩ := index_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2000 ≤ (i 1).val ∧ (i 1).val < win0_4.index t (1 : Fin 2) * 2000 + 2000
    omega

/-- THE ARRAY after the run is the layer. -/
theorem final (c : Dev nD) : (dats m 0 c).arrAt 4 cfg0.N = rbf (argX m c) (argMean m c) (w m c) :=
  (dats m 0 c).arrAt_eq_of_cover 4 (rbf (argX m c) (argMean m c) (w m c)) (fun t _ => flushed_eq m c t) cover

/-- The kernel's run: every weakly fair execution terminates with the result array at the layer of the arguments and the
    arguments unchanged. -/
theorem run : θ_run defs (onTc (τ := τ) (main (F := Ideal))) ⟨m, fun _ => 0, ρ⟩ fun r => ∀ c : Dev nD,
      r.2.mem ((c : Thread nD τ).loc main_v19) = rbf (argX m c) (argMean m c) (w m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.Kernel

end
-- ==== Proof.Finite.lean ====
/-
  The precondition read at the raw parameter: it says that every entry of each of the three arguments has a magnitude
  strictly below +∞, as one conjunction of three "all entries" tests. Its third conjunct, read at an entry of the raw
  parameter ρ, makes that entry a real number: an extended real x with max(x, −x) < +∞ is neither −∞ nor +∞.
-/
import proofs.«154502_j850403524973_2_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Rbf.Finite

open Idealize.ShloMosaic Idealize.ShloMosaic.ValueIdx Cert.Pre_finite_inputs

/-- The rank-0 shape has one index. -/
instance : Subsingleton S_.Idx := ⟨fun _ _ => funext fun d => d.elim0⟩

/-- An extended real whose magnitude compares below the f32 word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the third argument is a real number. -/
theorem third_finite [Facts] (x0 : FVec Ideal S8192x1024 .f32) (x1 x2 : FVec Ideal S2000x1024 .f32)
    (h : fn (F := Ideal) x0 x1 x2 = fun _ => 1#1) (j : S2000x1024.Idx) : ∃ r : ℝ, x2 j = (r : EReal) := by
  have h0 := congrFun h ix0
  dsimp only [fn] at h0
  obtain ⟨_, h12⟩ := IntOp.andi_eq_one.1 h0
  exact real_of_abs_lt (x2 j) (Host.reduce_andi_all _ _ _ _ ix0 h12 j)

end Cert.Rbf.Finite

end
-- ==== Proof.lean ====
/-
  The certificate of a radial-basis layer: out[a, b] = exp (−Σ_k (x[a,k] − mean[b,k])² · w[b,k]) with precision weights
  w = 1 / (2·σ²), σ the softplus of a raw parameter ρ, computed in the expanded form
      exp (−((Σ_k x² · w − 2 · Σ_k x · (mean · w)) + Σ_k mean² · w)).

  The kernel program computes w, mean · w and the per-class bias on the host, with the softplus spelt
  max(ρ, 0) + log (1 + e^(−|ρ|)), and then, 512 rows of the batch per grid point, the two products and the exponential;
  the reference computes everything on the host with the softplus spelt log (1 + e^ρ). On the extended reals both
  result arrays are the one function `Cert.Rbf.rbf` of the batch, the means and the weight array (the same sums, grouped
  the same way; a change of float format is the identity; a product into a zero accumulator is the plain sum), and the
  two weight arrays agree because the two softplus spellings agree at every finite ρ — the one place where the
  precondition (every input finite) is used.

  The three frames are the programs' runs with the result forgotten; the kernel's idealization rewrote nothing, so
  that conjunct is trivial.
-/
import proofs.«154502_j850403524973_2_alg».proof.Defs
import proofs.«154502_j850403524973_2_alg».proof.Proof.Gen.Kernel
import proofs.«154502_j850403524973_2_alg».proof.Proof.Gen.Kernel.Skeleton
import proofs.«154502_j850403524973_2_alg».proof.Proof.Gen.Kernel.Launch
import proofs.«154502_j850403524973_2_alg».proof.Proof.Gen.Kernel.Points
import proofs.«154502_j850403524973_2_alg».proof.Proof.Gen.Kernel.Frame
import proofs.«154502_j850403524973_2_alg».proof.Proof.Gen.KernelIdeal
import proofs.«154502_j850403524973_2_alg».proof.Proof.Gen.KernelIdeal.Skeleton
import proofs.«154502_j850403524973_2_alg».proof.Proof.Gen.KernelIdeal.Launch
import proofs.«154502_j850403524973_2_alg».proof.Proof.Gen.KernelIdeal.Points
import proofs.«154502_j850403524973_2_alg».proof.Proof.Gen.KernelIdeal.Frame
import proofs.«154502_j850403524973_2_alg».proof.Proof.Gen.ReferenceIdeal
import proofs.«154502_j850403524973_2_alg».proof.Proof.Gen.Pre_finite_inputs
import proofs.«154502_j850403524973_2_alg».proof.Proof.Gen.KernelIdeal.Value
import proofs.«154502_j850403524973_2_alg».proof.Proof.Gen.ReferenceIdeal.Run
import proofs.«154502_j850403524973_2_alg».proof.Proof.Gen.ReferenceIdeal.Read
import proofs.«154502_j850403524973_2_alg».proof.Proof.Spec
import proofs.«154502_j850403524973_2_alg».proof.Proof.RefValue
import proofs.«154502_j850403524973_2_alg».proof.Proof.KernelValue
import proofs.«154502_j850403524973_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of their (agreeing) arguments; the kernel's weights go through the stable softplus
    and the reference's through the plain one, which agree where the raw parameter is finite. -/
theorem algebraic : Cert.algebraic_KernelIdeal_ReferenceIdeal := by
  intro m ρ m' ρ' hpre hagree
  refine ⟨fun c => Cert.Rbf.rbf (Cert.Rbf.Host.argX m c) (Cert.Rbf.Host.argMean m c) (Cert.Rbf.Host.w m c),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Rbf.Reference.result_eq, (hagree c).1, (hagree c).2.1,
    (hagree c).2.2]
  exact congrArg (Cert.Rbf.rbf (Cert.Rbf.Host.argX m c) (Cert.Rbf.Host.argMean m c))
    (Cert.Rbf.weights_stable (Cert.Rbf.Host.argRho m c)
      (fun j => Cert.Rbf.Finite.third_finite _ _ _ (hpre c) j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
